-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2048x2048 : Shape := ⟨2, ![2048, 2048]⟩
abbrev S2x2048 : Shape := ⟨2, ![2, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2x16x2048x64 .f32) (main_arg1 : FVec F S2x16x2048x64 .f32) (main_arg2 : FVec F S2048x2048 .f32) (main_arg3 : IVec S2x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S2x16x2048x64 : Shape := ⟨4, ![2, 16, 2048, 64]⟩
abbrev S2048x2048 : Shape := ⟨2, ![2048, 2048]⟩
abbrev S2x2048 : Shape := ⟨2, ![2, 2048]⟩
abbrev S2x1x2048 : Shape := ⟨3, ![2, 1, 2048]⟩
abbrev S1x2048x2048 : Shape := ⟨3, ![1, 2048, 2048]⟩
abbrev S_ : Shape := ⟨0, ![]⟩
abbrev S2x2048x2048 : Shape := ⟨3, ![2, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩

abbrev nBuf : Space → Nat
  | .hbm => 13
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2048x2048, .f32⟩
  | .hbm, ⟨3, _⟩ => ⟨S2x2048, .i1⟩
  | .hbm, ⟨4, _⟩ => ⟨S2x1x2048, .i1⟩
  | .hbm, ⟨5, _⟩ => ⟨S1x2048x2048, .f32⟩
  | .hbm, ⟨6, _⟩ => ⟨S_, .f32⟩
  | .hbm, ⟨7, _⟩ => ⟨S_, .f32⟩
  | .hbm, ⟨8, _⟩ => ⟨S2x2048x2048, .i1⟩
  | .hbm, ⟨9, _⟩ => ⟨S2x2048x2048, .f32⟩
  | .hbm, ⟨10, _⟩ => ⟨S2x2048x2048, .f32⟩
  | .hbm, ⟨11, _⟩ => ⟨S2x2048x2048, .f32⟩
  | .hbm, ⟨12, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x512x2048, .f32⟩
  | .local _ .vmem, ⟨5, _⟩ => ⟨S1x512x2048, .f32⟩
  | .local _ .vmem, ⟨6, _⟩ => ⟨S1x1x512x2048, .f32⟩
  | .local _ .vmem, ⟨7, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bcast_S2x2048_S2x1x2048_0_2 : S2x2048.BroadcastsInDim S2x1x2048 (![0, 2] : Fin 2 → Fin S2x1x2048.rank)
  bcast_S2048x2048_S1x2048x2048_1_2 : S2048x2048.BroadcastsInDim S1x2048x2048 (![1, 2] : Fin 2 → Fin S1x2048x2048.rank)
  bcast_S2x1x2048_S2x2048x2048_0_1_2 : S2x1x2048.BroadcastsInDim S2x2048x2048 (![0, 1, 2] : Fin 3 → Fin S2x2048x2048.rank)
  bcast_S_S2x2048x2048 : S_.BroadcastsInDim S2x2048x2048 (![] : Fin 0 → Fin S2x2048x2048.rank)
  bcast_S1x2048x2048_S2x2048x2048_0_1_2 : S1x2048x2048.BroadcastsInDim S2x2048x2048 (![0, 1, 2] : Fin 3 → Fin S2x2048x2048.rank)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  dot_S512x64_S2048x64_S512x2048_1_1_0_0_n_n_wf : DotDims.WF S512x64 S2048x64 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S2x2048x2048.size a
  hwx0_2 : ∀ i : grid0.Coords, EltTy.bits .f32 = 32 ∨ (Rect.block (s := S2x2048x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x16x2048x2048.size a
  hwx0_3 : ∀ i : grid0.Coords, EltTy.bits .f32 = 32 ∨ (Rect.block (s := S2x16x2048x2048) S1x1x512x2048.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2048x2048 : Shape := ⟨2, ![2048, 2048]⟩
abbrev S2x2048 : Shape := ⟨2, ![2, 2048]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x1x1x2048 : Shape := ⟨4, ![2, 1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2048x2048, .f32⟩
  | .hbm, ⟨3, _⟩ => ⟨S2x2048, .i1⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S1x1x2048x2048, .f32⟩
  | .hbm, ⟨10, _⟩ => ⟨S2x16x2048x2048, .f32⟩
  | .hbm, ⟨11, _⟩ => ⟨S2x16x2048x2048, .f32⟩
  | .hbm, ⟨12, _⟩ => ⟨S2x1x1x2048, .i1⟩
  | .hbm, ⟨13, _⟩ => ⟨S_, .f32⟩
  | .hbm, ⟨14, _⟩ => ⟨S_, .f32⟩
  | .hbm, ⟨15, _⟩ => ⟨S2x16x2048x2048, .i1⟩
  | .hbm, ⟨16, _⟩ => ⟨S2x16x2048x2048, .f32⟩
  | .hbm, ⟨17, _⟩ => ⟨S2x16x2048x2048, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  bcast_S2x2048_S2x1x1x2048_0_3 : S2x2048.BroadcastsInDim S2x1x1x2048 (![0, 3] : Fin 2 → Fin S2x1x1x2048.rank)
  bcast_S2x1x1x2048_S2x16x2048x2048_0_1_2_3 : S2x1x1x2048.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf

class Facts : Prop extends Facts₀ where

variable [Facts]
-- ==== Proof.Scores.lean ====
/-
  The specification: the masked, scaled attention scores as ONE function of the four argument arrays, entry by entry.

  For a batch `b`, a head `h`, a query row `r` and a key row `c`, the score is the contraction over the head dimension of
  query row `r` with key row `c`, divided by `sqrt 64`, plus the additive mask at `(r, c)`; where key `c` of batch `b` is
  padded the entry is the fill `-inf` instead. Both programs compute this function; the float patterns are kept as the
  programs spell them, so that neither side has to evaluate a pattern it shares with the other.
-/
import Idealize.ShloMosaic.PureOps.Ideal
import Idealize.ShloMosaic.Lib.ValueIdx

noncomputable section

namespace Cert.AttnScores

open Idealize.ShloMosaic Idealize.ShloMosaic.ValueIdx

/-- Queries and keys: batch × head × row × head dimension. -/
abbrev QK : Shape := ⟨4, ![2, 16, 2048, 64]⟩
/-- The additive mask: query row × key row. -/
abbrev Mask : Shape := ⟨2, ![2048, 2048]⟩
/-- The padding flags: batch × key row. -/
abbrev Pad : Shape := ⟨2, ![2, 2048]⟩
/-- The scores: batch × head × query row × key row. -/
abbrev Out : Shape := ⟨4, ![2, 16, 2048, 2048]⟩

/-- The score of query row `r` against key row `c` in batch `b`, head `h`. -/
def scoreAt (q k : QK.Idx → EReal) (mask : Mask.Idx → EReal) (pad : Pad.Idx → BitVec 1)
    (b : Fin 2) (h : Fin 16) (r : Fin 2048) (c : Fin 2048) : EReal :=
  Scalar.select (pad (ix2 b c)) (Ideal.ofBits .f32 0xFF800000#32)
    (Ideal.div (∑ d : Fin 64, q (ix4 b h r d) * k (ix4 b h c d)) (Ideal.sqrt (Ideal.ofBits .f32 0x42800000#32))
      + mask (ix2 r c))

/-- The whole array of scores. -/
def scores (q k : QK.Idx → EReal) (mask : Mask.Idx → EReal) (pad : Pad.Idx → BitVec 1) : Out.Idx → EReal :=
  fun i => scoreAt q k mask pad (i 0) (i 1) (i 2) (i 3)

theorem scores_ix4 (q k : QK.Idx → EReal) (mask : Mask.Idx → EReal) (pad : Pad.Idx → BitVec 1)
    (b : Fin 2) (h : Fin 16) (r : Fin 2048) (c : Fin 2048) :
    scores q k mask pad (ix4 b h r c) = scoreAt q k mask pad b h r c := rfl

end Cert.AttnScores

end
-- ==== Proof.ScaleLaw.lean ====
/-
  The arithmetic that joins the two programs, on the extended reals and with no reference to either program.

  The kernel scales every query entry by the float `0.125` BEFORE the contraction over the head dimension; the
  reference divides the finished contraction by `sqrt 64`. The pattern `0x3E000000` denotes the real `1/8`, the
  pattern `0x42800000` the real `64`, whose square root is `8`, and dividing by the real `8` is multiplying by
  `1/8`. What remains is to move the factor `1/8` out of a finite sum of extended reals: multiplication by a
  nonnegative REAL distributes over the addition of the extended reals at every argument, the infinities included
  (the sum `⊤ + ⊥ = ⊥` is carried to `⊥` on both sides), so no finiteness of the summands is used.
  The padding fill is the pattern `0xFF800000`, which denotes `⊥`, and `x + ⊥ = ⊥` for every `x`.
-/
import Idealize.ShloMosaic.PureOps.Ideal

noncomputable section

namespace Cert.AttnScores

open Idealize.ShloMosaic

/-- The float `0.125` denotes the real `1/8`. -/
theorem ofBits_eighth : Ideal.ofBits .f32 0x3E000000#32 = ((1 / 8 : ℝ) : EReal) := by
  simp [Ideal.ofBits, Ideal.ieee, -EReal.coe_mul]; norm_num

/-- The float `64.0` denotes the real `64`. -/
theorem ofBits_sixtyfour : Ideal.ofBits .f32 0x42800000#32 = ((64 : ℝ) : EReal) := by
  simp [Ideal.ofBits, Ideal.ieee, -EReal.coe_mul]; norm_num

/-- The float `-inf` denotes `⊥`. -/
theorem ofBits_neg_inf : Ideal.ofBits .f32 0xFF800000#32 = ⊥ := by
  simp [Ideal.ofBits, Ideal.ieee]

/-- `64` is the square of `8`. -/
theorem sqrt_sixtyfour : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- A nonnegative factor other than `⊤` moves out of a finite sum of extended reals, whatever the summands. -/
theorem sum_mul_of_nonneg_of_ne_top {ι : Type*} (s : Finset ι) (f : ι → EReal) {c : EReal} (h0 : 0 ≤ c) (ht : c ≠ ⊤) :
    ∑ k ∈ s, f k * c = (∑ k ∈ s, f k) * c := by
  classical
  induction s using Finset.induction_on with
  | empty => simp
  | insert a s ha ih =>
    rw [Finset.sum_insert ha, Finset.sum_insert ha, ih, EReal.right_distrib_of_nonneg_of_ne_top h0 ht]

/-- THE LAW: a contraction whose left factors were each scaled by `0.125` is the unscaled contraction divided by
    `sqrt 64`, at all extended-real entries. -/
theorem scaled_dot {ι : Type*} [Fintype ι] (a b : ι → EReal) :
    ∑ k, (a k * Ideal.ofBits .f32 0x3E000000#32) * b k
      = Ideal.div (∑ k, a k * b k) (Ideal.sqrt (Ideal.ofBits .f32 0x42800000#32)) := by
  rw [ofBits_sixtyfour, sqrt_sixtyfour, Ideal.div_coe (by norm_num : (8 : ℝ) ≠ 0), ofBits_eighth,
    ← sum_mul_of_nonneg_of_ne_top _ _ (EReal.coe_nonneg.mpr (by norm_num)) (EReal.coe_ne_top _)]
  exact Finset.sum_congr rfl fun k _ => mul_right_comm _ _ _

/-- Adding the padding fill gives the padding fill. -/
theorem add_neg_inf (x : EReal) : x + Ideal.ofBits .f32 0xFF800000#32 = Ideal.ofBits .f32 0xFF800000#32 := by
  rw [ofBits_neg_inf, EReal.add_bot]

/-- ONE ENTRY: the scaled contraction plus the combined mask's entry (the fill where the key is padded, the mask's entry
    elsewhere) is the select, on the same flag, between the fill and the divided contraction plus the mask's entry.
    Where the key is padded the left side is `x + (-inf) = -inf`; elsewhere the two sides differ only by the scale. -/
theorem entry_law {ι : Type*} [Fintype ι] (a b : ι → EReal) (p : BitVec 1) (μ : EReal) :
    (∑ k, (a k * Ideal.ofBits .f32 0x3E000000#32) * b k) + Scalar.select p (Ideal.ofBits .f32 0xFF800000#32) μ
      = Scalar.select p (Ideal.ofBits .f32 0xFF800000#32)
          (Ideal.div (∑ k, a k * b k) (Ideal.sqrt (Ideal.ofBits .f32 0x42800000#32)) + μ) := by
  rcases BitVec.eq_zero_or_eq_one p with h | h
  · subst h
    show _ + (if (0#1 : BitVec 1) = 1 then _ else μ) = (if (0#1 : BitVec 1) = 1 then _ else _)
    rw [if_neg (by decide), if_neg (by decide), scaled_dot]
  · subst h
    show _ + (if (1#1 : BitVec 1) = 1 then Ideal.ofBits .f32 0xFF800000#32 else _) = (if (1#1 : BitVec 1) = 1 then _ else _)
    rw [if_pos (by decide), if_pos (by decide), add_neg_inf]

end Cert.AttnScores

end
-- ==== Proof.LibUnitAxes.lean ====
/-
  General layout lemmas: TWO leading unit axes dropped or added by a shape cast, read at an index written by
  coordinates. A kernel block of shape `[1, 1, a, b]` is cast to the matrix `[a, b]` the body computes with, and the
  body's `[a, b]` result is cast back to `[1, 1, a, b]` for the store. Both casts keep the row-major position, and a
  unit coordinate contributes nothing to it. (The one-unit-axis forms are in the library's layout file.)
-/
import Idealize.ShloMosaic.Lib.Pipeline.Value
import Idealize.ShloMosaic.Lib.ValueIdx

namespace Idealize.ShloMosaic.UnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Idealize.ShloMosaic.UnitAxes
-- ==== Proof.BlockScores.lean ====
/-
  What the kernel body computes on one block, entry by entry.

  At a grid point the body holds a query block `[1, 1, 512, 64]`, the key block `[1, 1, 2048, 64]` of the same batch and
  head, and a block `[1, 512, 2048]` of the combined mask. It drops the unit axes, scales every query entry by the float
  `0.125`, rounds both operands to bf16 (no change of value on the extended reals), contracts query row `r` with key
  row `c` over the 64 entries of the head dimension into a zero accumulator, adds the mask block's entry `(r, c)` and
  puts the unit axes back. So entry `(r, c)` of the stored block is
  `∑ d, (query r d · 0.125) · key c d + mask r c`.
-/
import proofs.«128535_j64269890617540_2_alg».proof.Proof.Gen.KernelIdeal.Skeleton
import proofs.«128535_j64269890617540_2_alg».proof.Proof.LibUnitAxes
import Idealize.ShloMosaic.Lib.ValueIdx
import Idealize.ShloMosaic.Lib.ValueLayout
import Idealize.ShloMosaic.PureOps.Ideal.Laws

noncomputable section

namespace Cert.AttnScores

open Idealize.ShloMosaic Idealize.ShloMosaic.ValueIdx Idealize.ShloMosaic.UnitAxes Cert.KernelIdeal Cert.KernelIdeal.Gen

/-- Row coordinate of the contraction's left operand: the output entry's row. -/
theorem dot_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

/-- Column coordinate of the contraction's left operand: the contraction position. -/
theorem dot_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q

/-- Row coordinate of the contraction's right operand: the output entry's COLUMN (the keys enter untransposed). -/
theorem dot_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- Column coordinate of the contraction's right operand: the contraction position. -/
theorem dot_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The contraction's left operand index at output entry `(r, c)` and position `d` is `(r, d)`. -/
theorem dot_lhs_idx (r : Fin 512) (c : Fin 2048) (d : Fin 64) :
    dot_S512x64_S2048x64_S512x2048_1_1_0_0_n_n.lhsIdx (ix2 r c)
        ((contrEquiv1 dot_S512x64_S2048x64_S512x2048_1_1_0_0_n_n 64 rfl rfl).symm d) = ix2 r d :=
  funext fun a => Fin.ext (by
    match a with
    | ⟨0, _⟩ => exact dot_lhs_0 _ _
    | ⟨1, _⟩ =>
      exact (dot_lhs_1 _ _).trans (contrEquiv1_symm_val dot_S512x64_S2048x64_S512x2048_1_1_0_0_n_n 64 rfl rfl d))

/-- The contraction's right operand index at output entry `(r, c)` and position `d` is `(c, d)`. -/
theorem dot_rhs_idx (r : Fin 512) (c : Fin 2048) (d : Fin 64) :
    dot_S512x64_S2048x64_S512x2048_1_1_0_0_n_n.rhsIdx (ix2 r c)
        ((contrEquiv1 dot_S512x64_S2048x64_S512x2048_1_1_0_0_n_n 64 rfl rfl).symm d) = ix2 c d :=
  funext fun a => Fin.ext (by
    match a with
    | ⟨0, _⟩ => exact dot_rhs_0 _ _
    | ⟨1, _⟩ =>
      exact (dot_rhs_1 _ _).trans (contrEquiv1_symm_val dot_S512x64_S2048x64_S512x2048_1_1_0_0_n_n 64 rfl rfl d))

/-- THE BLOCK: the body's stored value at `(u, v, r, c)` from its three loaded blocks. -/
theorem payload_apply (x0 : FVec Ideal S1x1x512x64 .f32) (x1 : FVec Ideal S1x1x2048x64 .f32) (x2 : FVec Ideal S1x512x2048 .f32)
    (u v : Fin 1) (r : Fin 512) (c : Fin 2048) :
    k0_pay1 (F := Ideal) x0 x1 x2 (ix4 u v r c)
      = (∑ d : Fin 64, (x0 (ix4 (0 : Fin 1) (0 : Fin 1) r d) * Ideal.ofBits .f32 0x3E000000#32)
            * x1 (ix4 (0 : Fin 1) (0 : Fin 1) c d))
          + x2 (ix3 (0 : Fin 1) r c) := by
  unfold k0_pay1
  refine (shapeCast_ab_11ab_apply _ _ u v r c).trans ?_
  rw [addf_apply, shapeCast_1ab_ab_apply]
  refine congrArg (· + x2 (ix3 (0 : Fin 1) r c)) ?_
  refine (Ideal.matmul_constant_zero_apply _ none _ _ _).trans ?_
  rw [← Equiv.sum_comp (contrEquiv1 dot_S512x64_S2048x64_S512x2048_1_1_0_0_n_n 64 rfl rfl).symm]
  refine Finset.sum_congr rfl fun d _ => ?_
  rw [dot_lhs_idx, dot_rhs_idx, truncf_apply, truncf_apply, mulf_apply, broadcast_apply,
    shapeCast_11ab_ab_apply, shapeCast_11ab_ab_apply]
  rfl

end Cert.AttnScores

end
-- ==== Proof.MaskArray.lean ====
/-
  The combined mask the kernel's host prefix builds before the region.

  Before the launch the program broadcasts the padding flags `[2, 2048]` over the query rows and the additive mask
  `[2048, 2048]` over the batches, and selects between the fill `-inf` and the mask: the array `[2, 2048, 2048]` the
  region's third window stages holds, at `(b, r, c)`, the fill where key `c` of batch `b` is padded and the mask's
  entry `(r, c)` elsewhere. The broadcasts only re-index.
-/
import proofs.«128535_j64269890617540_2_alg».proof.Proof.Gen.KernelIdeal.Frame
import Idealize.ShloMosaic.Lib.Pipeline.Value
import Idealize.ShloMosaic.Lib.ValueIdx
import Idealize.ShloMosaic.Lib.StableHlo.Run

noncomputable section

namespace Cert.AttnScores

open Idealize.ShloMosaic Idealize.ShloMosaic.TcCoe Idealize.ShloMosaic.ValueIdx Idealize.SL.Sem Idealize.ShloMosaic.StableHlo
open Cert.KernelIdeal Cert.KernelIdeal.Gen

/-- The host prefix's term for the combined mask, of the padding flags and the additive mask. -/
def combinedMask (pad : IVec S2x2048 1) (mask : FVec Ideal S2048x2048 .f32) : FVec Ideal S2x2048x2048 .f32 :=
  select
    (broadcastInDim S2x2048x2048 ![0, 1, 2] bcast_S2x1x2048_S2x2048x2048_0_1_2
      (broadcastInDim S2x1x2048 ![0, 2] bcast_S2x2048_S2x1x2048_0_2 pad))
    (broadcastInDim S2x2048x2048 ![] bcast_S_S2x2048x2048 (id (constant (F := Ideal) S_ .f32 0xFF800000#32)))
    (broadcastInDim S2x2048x2048 ![0, 1, 2] bcast_S1x2048x2048_S2x2048x2048_0_1_2
      (broadcastInDim S1x2048x2048 ![1, 2] bcast_S2048x2048_S1x2048x2048_1_2 mask))

/-- The combined mask at `(b, r, c)`: the fill where key `c` of batch `b` is padded, the mask at `(r, c)` elsewhere. -/
theorem combinedMask_apply (pad : IVec S2x2048 1) (mask : FVec Ideal S2048x2048 .f32) (b : Fin 2) (r c : Fin 2048) :
    combinedMask pad mask (ix3 b r c)
      = Scalar.select (pad (ix2 b c)) (Ideal.ofBits .f32 0xFF800000#32) (mask (ix2 r c)) := by
  unfold combinedMask
  rw [select_apply]
  have hpad : broadcastInDim S2x2048x2048 ![0, 1, 2] bcast_S2x1x2048_S2x2048x2048_0_1_2
      (broadcastInDim S2x1x2048 ![0, 2] bcast_S2x2048_S2x1x2048_0_2 pad) (ix3 b r c) = pad (ix2 b c) :=
    (broadcastInDim_apply _ bcast_S2x1x2048_S2x2048x2048_0_1_2 _ (ix3 b r c) (ix3 b (0 : Fin 1) c) (fun a => match a with
      | ⟨0, _⟩ => by show b.val = if (2 : Nat) = 1 then 0 else b.val; rw [if_neg (by decide)]
      | ⟨1, _⟩ => by show 0 = if (1 : Nat) = 1 then 0 else r.val; rw [if_pos rfl]
      | ⟨2, _⟩ => by show c.val = if (2048 : Nat) = 1 then 0 else c.val; rw [if_neg (by decide)])).trans
    (broadcastInDim_apply _ bcast_S2x2048_S2x1x2048_0_2 pad (ix3 b (0 : Fin 1) c) (ix2 b c) (fun a => match a with
      | ⟨0, _⟩ => by show b.val = if (2 : Nat) = 1 then 0 else b.val; rw [if_neg (by decide)]
      | ⟨1, _⟩ => by show c.val = if (2048 : Nat) = 1 then 0 else c.val; rw [if_neg (by decide)]))
  have hfill : broadcastInDim S2x2048x2048 ![] bcast_S_S2x2048x2048 (id (constant (F := Ideal) S_ .f32 0xFF800000#32)) (ix3 b r c)
      = Ideal.ofBits .f32 0xFF800000#32 :=
    broadcastInDim_apply _ bcast_S_S2x2048x2048 _ (ix3 b r c) ix0 (fun a => a.elim0)
  have hmask : broadcastInDim S2x2048x2048 ![0, 1, 2] bcast_S1x2048x2048_S2x2048x2048_0_1_2
      (broadcastInDim S1x2048x2048 ![1, 2] bcast_S2048x2048_S1x2048x2048_1_2 mask) (ix3 b r c) = mask (ix2 r c) :=
    (broadcastInDim_apply _ bcast_S1x2048x2048_S2x2048x2048_0_1_2 _ (ix3 b r c) (ix3 (0 : Fin 1) r c) (fun a => match a with
      | ⟨0, _⟩ => by show 0 = if (1 : Nat) = 1 then 0 else b.val; rw [if_pos rfl]
      | ⟨1, _⟩ => by show r.val = if (2048 : Nat) = 1 then 0 else r.val; rw [if_neg (by decide)]
      | ⟨2, _⟩ => by show c.val = if (2048 : Nat) = 1 then 0 else c.val; rw [if_neg (by decide)])).trans
    (broadcastInDim_apply _ bcast_S2048x2048_S1x2048x2048_1_2 mask (ix3 (0 : Fin 1) r c) (ix2 r c) (fun a => match a with
      | ⟨0, _⟩ => by show r.val = if (2048 : Nat) = 1 then 0 else r.val; rw [if_neg (by decide)]
      | ⟨1, _⟩ => by show c.val = if (2048 : Nat) = 1 then 0 else c.val; rw [if_neg (by decide)]))
  rw [hpad, hfill, hmask]

/-- When the region is entered, its third window's array holds the combined mask of the launch contents of the
    padding flags and the additive mask. -/
theorem region_mask (m : (ℓ : Loc nD τ sig) → Buf (Elt Ideal) ℓ) (c : Dev nD) :
    (V m c main_v2 : S2x2048x2048.Idx → EReal)
      = combinedMask (m ((c : Thread nD τ).loc main_arg3)) (m ((c : Thread nD τ).loc main_arg2)) := by
  unfold combinedMask
  dsimp only [Gen.V]
  simp only [Gen.hostOps0, Gen.hostOps0_1, List.flatten_cons, List.flatten_nil, List.append_nil, List.cons_append,
    List.nil_append]
  after_results
  rfl

end Cert.AttnScores

end
-- ==== Proof.KernelScores.lean ====
/-
  From blocks to the array: the kernel's result array is the array of scores.

  The grid has 4 · 2 · 16 points, one per (row block of 512 query rows, batch, head). At a point the output window's
  block is rows `512·s … 512·s + 511` of the `[2048, 2048]` score matrix of that batch and head; the query window's
  block is the same 512 rows of the head's queries, the key window's block the head's whole key matrix, and the mask
  window's block the same 512 rows of the batch's combined mask. So the entry the point stores at `(r, k)` of its
  block — the scaled contraction of query row `r` with key row `k`, plus the combined mask there — is the
  specification's score at the array index the entry is written to (the one law of the extended reals that joins the
  two spellings is applied here, once per entry). Every array index lies in exactly the block of its batch, head and
  row block, so the blocks cover the array and the array after the run is the array of scores.
-/
import proofs.«128535_j64269890617540_2_alg».proof.Proof.Gen.KernelIdeal.Value
import proofs.«128535_j64269890617540_2_alg».proof.Proof.Scores
import proofs.«128535_j64269890617540_2_alg».proof.Proof.ScaleLaw
import proofs.«128535_j64269890617540_2_alg».proof.Proof.BlockScores
import proofs.«128535_j64269890617540_2_alg».proof.Proof.MaskArray

noncomputable section

namespace Cert.AttnScores

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The body's loads and its store start at the origin of their buffers. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided once over the 128 grid points: the query and key windows sit at the output
    window's batch and head, the query window also at its row block; the mask window sits at the output's batch and
    row block; and the output's block indices stay in their ranges. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = win0_3.index t (2 : Fin 4) ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 3) = win0_3.index t (0 : Fin 4) ∧ win0_2.index t (1 : Fin 3) = win0_3.index t (2 : Fin 4)
    ∧ win0_2.index t (2 : Fin 3) = 0
    ∧ win0_3.index t (0 : Fin 4) ≤ 1 ∧ win0_3.index t (1 : Fin 4) ≤ 15 ∧ win0_3.index t (2 : Fin 4) ≤ 3
    ∧ win0_3.index t (3 : Fin 4) = 0 :=
  (by decide +kernel : ∀ t : Fin grid0.N, _)

/-- Every (batch, head, row block) is some grid point's output block. -/
theorem idx_onto : ∀ (q0 : Fin 2) (q1 : Fin 16) (q2 : Fin 4), ∃ t : Fin cfg0.N, win0_3.index t = ![q0.val, q1.val, q2.val, 0] :=
  (by decide +kernel : ∀ (q0 : Fin 2) (q1 : Fin 16) (q2 : Fin 4), ∃ t : Fin grid0.N, win0_3.index t = ![q0.val, q1.val, q2.val, 0])

/-- The array coordinates of the entry a point writes at `(u, v, r, k)` of its block: block index × block size plus
    the coordinate inside the block, axis by axis. -/
theorem out_coords (t : Fin cfg0.N) (u v : Fin 1) (r : Fin 512) (k : Fin 2048) (b : Fin 2) (h : Fin 16) (i j : Fin 2048)
    (hE : (((cfg0.win 3).blk t).view.emb (ix4 u v r k) : S2x16x2048x2048.Idx) = ix4 b h i j) :
    win0_3.index t (0 : Fin 4) * 1 + 1 * u.val = b.val ∧ win0_3.index t (1 : Fin 4) * 1 + 1 * v.val = h.val
    ∧ win0_3.index t (2 : Fin 4) * 512 + 1 * r.val = i.val ∧ win0_3.index t (3 : Fin 4) * 2048 + 1 * k.val = j.val :=
  ⟨congrArg (fun e : S2x16x2048x2048.Idx => (e 0).val) hE, congrArg (fun e : S2x16x2048x2048.Idx => (e 1).val) hE,
    congrArg (fun e : S2x16x2048x2048.Idx => (e 2).val) hE, congrArg (fun e : S2x16x2048x2048.Idx => (e 3).val) hE⟩

/-- The query block at a point, at row `r` and position `d`, is the query array at the batch, head and row of the
    output entry the point writes at `(u, v, r, k)`. -/
theorem read_query (c : Dev nD) (t : Fin cfg0.N) (u v : Fin 1) (r : Fin 512) (k : Fin 2048) (b : Fin 2) (h : Fin 16)
    (i j : Fin 2048) (hE : (((cfg0.win 3).blk t).view.emb (ix4 u v r k) : S2x16x2048x2048.Idx) = ix4 b h i j) (d : Fin 64) :
    iblk m c 0 t (ix4 (0 : Fin 1) (0 : Fin 1) r d) = m ((c : Thread nD τ).loc main_arg0) (ix4 b h i d) := by
  show V m c main_arg0 (((cfg0.win 0).blk t).view.emb (ix4 (0 : Fin 1) (0 : Fin 1) r d)) = _
  rw [V_main_arg0]
  refine congrArg _ (funext fun a => Fin.ext ?_)
  obtain ⟨e0, e1, e2, e3, -⟩ := idx_facts t
  obtain ⟨h0, h1, h2, h3⟩ := out_coords t u v r k b h i j hE
  have hu : u.val = 0 := by omega
  have hv : v.val = 0 := by omega
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = i.val; omega
  | ⟨3, _⟩ => show win0_0.index t (3 : Fin 4) * 64 + 1 * d.val = d.val; omega

/-- The key block at a point, at row `k` and position `d`, is the key array at the batch and head of the output entry
    and at the entry's key row: the key block is the head's whole key matrix. -/
theorem read_key (c : Dev nD) (t : Fin cfg0.N) (u v : Fin 1) (r : Fin 512) (k : Fin 2048) (b : Fin 2) (h : Fin 16)
    (i j : Fin 2048) (hE : (((cfg0.win 3).blk t).view.emb (ix4 u v r k) : S2x16x2048x2048.Idx) = ix4 b h i j) (d : Fin 64) :
    iblk m c 1 t (ix4 (0 : Fin 1) (0 : Fin 1) k d) = m ((c : Thread nD τ).loc main_arg1) (ix4 b h j d) := by
  show V m c main_arg1 (((cfg0.win 1).blk t).view.emb (ix4 (0 : Fin 1) (0 : Fin 1) k d)) = _
  rw [V_main_arg1]
  refine congrArg _ (funext fun a => Fin.ext ?_)
  obtain ⟨-, -, -, -, e4, e5, e6, e7, -, -, -, -, -, -, e14⟩ := idx_facts t
  obtain ⟨h0, h1, h2, h3⟩ := out_coords t u v r k b h i j hE
  have hu : u.val = 0 := by omega
  have hv : v.val = 0 := by omega
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = j.val; omega
  | ⟨3, _⟩ => show win0_1.index t (3 : Fin 4) * 64 + 1 * d.val = d.val; omega

/-- The mask block at a point, at `(r, k)`, is the combined mask at the batch, query row and key row of the output
    entry. -/
theorem read_mask (c : Dev nD) (t : Fin cfg0.N) (u v : Fin 1) (r : Fin 512) (k : Fin 2048) (b : Fin 2) (h : Fin 16)
    (i j : Fin 2048) (hE : (((cfg0.win 3).blk t).view.emb (ix4 u v r k) : S2x16x2048x2048.Idx) = ix4 b h i j) :
    iblk m c 2 t (ix3 (0 : Fin 1) r k)
      = combinedMask (m ((c : Thread nD τ).loc main_arg3)) (m ((c : Thread nD τ).loc main_arg2)) (ix3 b i j) := by
  show V m c main_v2 (((cfg0.win 2).blk t).view.emb (ix3 (0 : Fin 1) r k)) = _
  rw [region_mask]
  refine congrArg _ (funext fun a => Fin.ext ?_)
  obtain ⟨-, -, -, -, -, -, -, -, e8, e9, e10, -, -, -, e14⟩ := idx_facts t
  obtain ⟨h0, h1, h2, h3⟩ := out_coords t u v r k b h i j hE
  have hu : u.val = 0 := by omega
  match a with
  | ⟨0, _⟩ => show win0_2.index t (0 : Fin 3) * 1 + 1 * 0 = b.val; omega
  | ⟨1, _⟩ => show win0_2.index t (1 : Fin 3) * 512 + 1 * r.val = i.val; omega
  | ⟨2, _⟩ => show win0_2.index t (2 : Fin 3) * 2048 + 1 * k.val = j.val; omega

/-- ONE ENTRY of what a point stores: the score at the array index the entry is written to. -/
theorem block_entry (c : Dev nD) (t : Fin cfg0.N) (y : S1x1x512x2048.Idx) :
    k0_pay1 (F := Ideal) (iblk m c 0 t) (iblk m c 1 t) (iblk m c 2 t) y
      = scores (m ((c : Thread nD τ).loc main_arg0)) (m ((c : Thread nD τ).loc main_arg1))
          (m ((c : Thread nD τ).loc main_arg2)) (m ((c : Thread nD τ).loc main_arg3))
          (((cfg0.win 3).blk t).view.emb y) := by
  obtain ⟨u, v, r, k, rfl⟩ : ∃ (u v : Fin 1) (r : Fin 512) (k : Fin 2048), y = ix4 u v r k :=
    ⟨y 0, y 1, y 2, y 3, eq_ix4 y⟩
  obtain ⟨b, h, i, j, hE⟩ : ∃ (b : Fin 2) (h : Fin 16) (i j : Fin 2048),
      (((cfg0.win 3).blk t).view.emb (ix4 u v r k) : S2x16x2048x2048.Idx) = ix4 b h i j :=
    ⟨_, _, _, _, eq_ix4 _⟩
  refine (payload_apply (iblk m c 0 t) (iblk m c 1 t) (iblk m c 2 t) u v r k).trans ?_
  rw [hE, scores_ix4, read_mask m c t u v r k b h i j hE, combinedMask_apply]
  simp only [read_query m c t u v r k b h i j hE, read_key m c t u v r k b h i j hE]
  exact entry_law _ _ _ _

/-- WHAT A POINT WRITES BACK is its block of the array of scores. -/
theorem flushed_eq (c : Dev nD) (t : Fin cfg0.N) :
    (dats m 0 c).flushed 3 t = ((cfg0.win 3).blk t).view.read (Elt Ideal)
      (scores (m ((c : Thread nD τ).loc main_arg0)) (m ((c : Thread nD τ).loc main_arg1))
        (m ((c : Thread nD τ).loc main_arg2)) (m ((c : Thread nD τ).loc main_arg3))) := by
  rw [Value.flushed3]
  unfold out0_3
  rw [View.canon_unit_zero hz4]
  simp only [View.ld_unit_zero (S := S1x1x512x64) hz4, View.ld_unit_zero (S := S1x1x2048x64) hz4,
    View.ld_unit_zero (S := S1x512x2048) hz3]
  funext y
  exact block_entry m c t y

/-- An index of the output array is in a point's block iff each coordinate is in the block's range on its axis. -/
theorem mem_blk (t : Fin cfg0.N) (i : S2x16x2048x2048.Idx) :
    i ∈ ((cfg0.win 3).blk t).view.set ↔ ∀ a : Fin 4, win0_3.index t a * S1x1x512x2048.size a ≤ (i a).val
      ∧ (i a).val < win0_3.index t a * S1x1x512x2048.size a + S1x1x512x2048.size a := by
  show i ∈ ((View.whole main_v3).slice (win0_3.rect t)).set ↔ _
  rw [View.set_slice_whole, Rect.mem_set_unit]
  exact Iff.rfl

/-- THE COVER: entry `(b, h, i, j)` lies in the block of the point of batch `b`, head `h` and row block `i / 512`. -/
theorem cover (i : S2x16x2048x2048.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 2048 ≤ (i 3).val ∧ (i 3).val < win0_3.index t (3 : Fin 4) * 2048 + 2048; omega

/-- THE ARRAY after the run is the array of scores of the launch contents of the four arguments. -/
theorem final (c : Dev nD) :
    (dats m 0 c).arrAt 3 cfg0.N
      = scores (m ((c : Thread nD τ).loc main_arg0)) (m ((c : Thread nD τ).loc main_arg1))
          (m ((c : Thread nD τ).loc main_arg2)) (m ((c : Thread nD τ).loc main_arg3)) :=
  (dats m 0 c).arrAt_eq_of_cover 3 _ (fun t _ => flushed_eq m c t) cover

/-- The kernel's run: it terminates with the result array at the scores, the arguments unchanged. -/
theorem run : θ_run defs (onTc (τ := τ) (main (F := Ideal))) ⟨m, fun _ => 0, ρ⟩ fun r => ∀ c : Dev nD,
      r.2.mem ((c : Thread nD τ).loc main_v3)
        = scores (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.AttnScores

end
-- ==== Proof.RefScores.lean ====
/-
  The reference computes the specification.

  Read one operation at a time, the reference's result at `(b, h, r, c)` is: the select, on the padding flag of
  `(b, c)`, between the fill `-inf` and the sum of (the contraction of query row `r` with key row `c` over the head
  dimension, divided by `sqrt 64`) and the mask at `(r, c)` — the broadcasts only re-index. That is the specification
  word for word, so nothing is computed here: the composed index functions are identified with the literal
  coordinates and the two terms coincide.
-/
import proofs.«128535_j64269890617540_2_alg».proof.Proof.Gen.ReferenceIdeal.Read
import proofs.«128535_j64269890617540_2_alg».proof.Proof.Scores

noncomputable section

namespace Cert.AttnScores

open Idealize.ShloMosaic Idealize.ShloMosaic.ValueIdx Cert.ReferenceIdeal Cert.ReferenceIdeal.Read

/-- The padding flag the select reads at `(b, h, r, c)` is the one of `(b, c)`. -/
theorem ref_pad_idx (b : Fin 2) (h : Fin 16) (r c : Fin 2048) :
    idx_main_v7 (idx_main_call0_v1 (ix4 b h r c)) = ix2 b c :=
  funext fun a => Fin.ext (by match a with | ⟨0, _⟩ => rfl | ⟨1, _⟩ => rfl)

/-- The mask entry added at `(b, h, r, c)` is the one of `(r, c)`. -/
theorem ref_mask_idx (b : Fin 2) (h : Fin 16) (r c : Fin 2048) :
    idx_main_v4 (idx_main_v5 (ix4 b h r c)) = ix2 r c :=
  funext fun a => Fin.ext (by match a with | ⟨0, _⟩ => rfl | ⟨1, _⟩ => rfl)

/-- The contraction's left factor at `(b, h, r, c)`, `d` is the query entry `(b, h, r, d)`. -/
theorem ref_lhs_idx (b : Fin 2) (h : Fin 16) (r c : Fin 2048) (d : Fin 64) :
    lidx_main_v0 (ix4 b h r c) d = ix4 b h r d :=
  funext fun a => Fin.ext (by match a with | ⟨0, _⟩ => rfl | ⟨1, _⟩ => rfl | ⟨2, _⟩ => rfl | ⟨3, _⟩ => rfl)

/-- The contraction's right factor at `(b, h, r, c)`, `d` is the key entry `(b, h, c, d)`. -/
theorem ref_rhs_idx (b : Fin 2) (h : Fin 16) (r c : Fin 2048) (d : Fin 64) :
    ridx_main_v0 (ix4 b h r c) d = ix4 b h c d :=
  funext fun a => Fin.ext (by match a with | ⟨0, _⟩ => rfl | ⟨1, _⟩ => rfl | ⟨2, _⟩ => rfl | ⟨3, _⟩ => rfl)

/-- The reference's result array is the array of scores. -/
theorem ref_eq_scores (q k : QK.Idx → EReal) (mask : Mask.Idx → EReal) (pad : Pad.Idx → BitVec 1) :
    val_main_v8 (F := Ideal) q k mask pad = scores q k mask pad := by
  funext i
  obtain ⟨b, h, r, c, rfl⟩ : ∃ (b : Fin 2) (h : Fin 16) (r c : Fin 2048), i = ix4 b h r c :=
    ⟨i 0, i 1, i 2, i 3, eq_ix4 i⟩
  rw [val_main_v8_apply, val_main_call0_v1_apply, val_main_v7_apply, val_main_call0_v2_apply, val_main_call0_v0_apply,
    val_main_cst_0_apply, val_main_v6_apply, val_main_v3_apply, val_main_v0_apply, val_main_v2_apply, val_main_v1_apply,
    val_main_cst_apply, val_main_v5_apply, val_main_v4_apply, ref_pad_idx, ref_mask_idx, scores_ix4]
  simp only [ref_lhs_idx, ref_rhs_idx]
  rfl

end Cert.AttnScores

end
-- ==== Proof.lean ====
/-
  The certificate of the attention-scores kernel against its reference, assembled.

  Both programs compute, for every batch, head, query row and key row, the contraction of the query row with the key
  row over the head dimension, scaled by `1/sqrt 64`, plus an additive mask, with the fill `-inf` at padded keys
  (Proof/Scores.lean). The reference divides the finished contraction by `sqrt 64` and selects the fill last
  (Proof/RefScores.lean reads its run). The kernel folds the padding into the mask before the launch
  (Proof/MaskArray.lean), scales the query by `0.125` before the contraction and adds the combined mask
  (Proof/BlockScores.lean, one block), and tiles the result over a grid of row blocks, batches and heads
  (Proof/KernelScores.lean). The two spellings agree at every extended-real input: `0.125 = 1/8 = 1/sqrt 64`, a
  nonnegative real factor moves out of a finite sum of extended reals, and `x + (-inf) = -inf` (Proof/ScaleLaw.lean);
  the precondition is not used by the value claim. The three frames are the programs' runs with the results dropped;
  the idealization rewrote nothing, so there is nothing to preserve.
-/
import proofs.«128535_j64269890617540_2_alg».proof.Defs
import proofs.«128535_j64269890617540_2_alg».proof.Proof.Gen.Kernel
import proofs.«128535_j64269890617540_2_alg».proof.Proof.Gen.Kernel.Skeleton
import proofs.«128535_j64269890617540_2_alg».proof.Proof.Gen.Kernel.Launch
import proofs.«128535_j64269890617540_2_alg».proof.Proof.Gen.Kernel.Points
import proofs.«128535_j64269890617540_2_alg».proof.Proof.Gen.Kernel.Frame
import proofs.«128535_j64269890617540_2_alg».proof.Proof.Gen.KernelIdeal
import proofs.«128535_j64269890617540_2_alg».proof.Proof.Gen.KernelIdeal.Skeleton
import proofs.«128535_j64269890617540_2_alg».proof.Proof.Gen.KernelIdeal.Launch
import proofs.«128535_j64269890617540_2_alg».proof.Proof.Gen.KernelIdeal.Points
import proofs.«128535_j64269890617540_2_alg».proof.Proof.Gen.KernelIdeal.Frame
import proofs.«128535_j64269890617540_2_alg».proof.Proof.Gen.ReferenceIdeal
import proofs.«128535_j64269890617540_2_alg».proof.Proof.Gen.Pre_finite_inputs
import proofs.«128535_j64269890617540_2_alg».proof.Proof.Gen.KernelIdeal.Value
import proofs.«128535_j64269890617540_2_alg».proof.Proof.Gen.ReferenceIdeal.Run
import proofs.«128535_j64269890617540_2_alg».proof.Proof.Gen.ReferenceIdeal.Read
import proofs.«128535_j64269890617540_2_alg».proof.Proof.KernelScores
import proofs.«128535_j64269890617540_2_alg».proof.Proof.RefScores
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the array of scores of those arguments. -/
theorem algebraic : Cert.algebraic_KernelIdeal_ReferenceIdeal := by
  intro m ρ m' ρ' _ hagree
  refine ⟨fun c => Cert.AttnScores.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.AttnScores.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.AttnScores.ref_eq_scores, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
